-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32x1 .f32) (main_arg6 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x1 .f32 := Host.absf main_arg5
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x32 .f32) (main_arg4 : FVec F S32 .f32) (main_arg5 : FVec F S32x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x128 : Shape := ⟨2, ![10000, 128]⟩
abbrev S10000x32 : Shape := ⟨2, ![10000, 32]⟩
abbrev S3300000x32 : Shape := ⟨2, ![3300000, 32]⟩
abbrev S1x32 : Shape := ⟨2, ![1, 32]⟩
abbrev S1x1 : Shape := ⟨2, ![1, 1]⟩
abbrev S100000x1 : Shape := ⟨2, ![100000, 1]⟩
abbrev S5000x32 : Shape := ⟨2, ![5000, 32]⟩
abbrev S5000x1 : Shape := ⟨2, ![5000, 1]⟩
abbrev S5000 : Shape := ⟨1, ![5000]⟩

abbrev nBuf : Space → Nat
  | .hbm => 73
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x32, .bf16⟩
  | .hbm, ⟨52, _⟩ => ⟨S3300000x1, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x32, .bf16⟩
  | .hbm, ⟨62, _⟩ => ⟨S3300000x32, .f32⟩
  | .hbm, ⟨63, _⟩ => ⟨S3300000x32, .f32⟩
  | .hbm, ⟨64, _⟩ => ⟨S3300000x32, .f32⟩
  | .hbm, ⟨65, _⟩ => ⟨S_, .f32⟩
  | .hbm, ⟨66, _⟩ => ⟨S100000x32, .f32⟩
  | .hbm, ⟨67, _⟩ => ⟨S3300000x1, .i32⟩
  | .hbm, ⟨68, _⟩ => ⟨S100000x32, .f32⟩
  | .hbm, ⟨69, _⟩ => ⟨S1x32, .f32⟩
  | .hbm, ⟨70, _⟩ => ⟨S1x32, .f32⟩
  | .hbm, ⟨71, _⟩ => ⟨S1x1, .f32⟩
  | .hbm, ⟨72, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .bf16⟩
  | .local _ .vmem, ⟨4, _⟩ => ⟨S10000x32, .bf16⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S1x32, .f32⟩
  | .local _ .vmem, ⟨9, _⟩ => ⟨S1x1, .f32⟩
  | .local _ .vmem, ⟨10, _⟩ => ⟨S5000x1, .f32⟩
  | .local _ .vmem, ⟨11, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  packedbf16_S10000x32_S10000x32_0_0 : (Rect.unit (s := S10000x32) ![0, 0] S10000x32.size inb_S10000x32_S10000x32_0_0).PackedRows (EltTy.packing .bf16)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S32x1_S1x32 : S32x1.ShapeCasts S1x32
  shapeCasts_S1_S1x1 : S1.ShapeCasts S1x1
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .bf16 = 32 ∨ (Rect.block (s := S100000x32) S10000x32.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S5000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x32, .f32⟩
  | .hbm, ⟨52, _⟩ => ⟨S3300000x1, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x32, .f32⟩
  | .hbm, ⟨62, _⟩ => ⟨S3300000x32, .f32⟩
  | .hbm, ⟨63, _⟩ => ⟨S3300000x32, .f32⟩
  | .hbm, ⟨64, _⟩ => ⟨S_, .f32⟩
  | .hbm, ⟨65, _⟩ => ⟨S100000x32, .f32⟩
  | .hbm, ⟨66, _⟩ => ⟨S3300000x1, .i32⟩
  | .hbm, ⟨67, _⟩ => ⟨S100000x32, .f32⟩
  | .hbm, ⟨68, _⟩ => ⟨S1x32, .f32⟩
  | .hbm, ⟨69, _⟩ => ⟨S100000x32, .f32⟩
  | .hbm, ⟨70, _⟩ => ⟨S100000x32, .f32⟩
  | .hbm, ⟨71, _⟩ => ⟨S_, .f32⟩
  | .hbm, ⟨72, _⟩ => ⟨S100000x32, .f32⟩
  | .hbm, ⟨73, _⟩ => ⟨S100000x32, .f32⟩
  | .hbm, ⟨74, _⟩ => ⟨S100000x1, .f32⟩
  | .hbm, ⟨75, _⟩ => ⟨S1x1, .f32⟩
  | .hbm, ⟨76, _⟩ => ⟨S100000x1, .f32⟩
  | .hbm, ⟨77, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x1_S100000x1_1_0_0_1_n_n_wf : DotDims.WF S100000x32 S32x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KRun.lean ====
/-
  The idealized kernel program's run with its result array named.

  The program is two pipelined regions among four stretches of host operations.  Its frame
  theorem follows the buffer contents through the six segments (`Gen.W0` … `Gen.W6`) and reads the
  argument arrays off the last boundary.  Here the same launch is read once more at the
  result buffer: after every weakly fair execution the result holds what the last boundary's
  contents `Gen.W6` hold there, and the arguments are as launched.
-/
import proofs.«154508_j35115652612671_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents, and every argument array as launched. -/
theorem run_named : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v51 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Hand

end
-- ==== Proof.Spec.lean ====
/-
  The mathematics both programs compute, on the extended reals, over literal shapes.

  * `matProd x w`: the `[100000, 128] × [128, 32]` matrix product, `(x·w)[i, n] = ∑ₖ x[i, k] · w[k, n]`.
  * `rowOut x b1 w2 b2 r`: one output row of the last layer from a `[R, 32]` feature array and
    the parameters laid out as rows, `∑ₖ max (x[r, k] + b1[0, k]) 0 · w2[0, k] + b2[0, 0]`.
  * `reluLinear`: every row's `rowOut`, the parameters as `[1, 32]`, `[1, 32]`, `[1, 1]` arrays
    (how the kernel program passes them).
  * `denseOut`: the same layer with the parameters in the shapes the caller gives them: a bias
    vector `[32]`, a weight column `[32, 1]` and a bias `[1]`,
    `∑ₖ max (x[i, k] + b1[k]) 0 · w2[k, 0] + b2[0]`.
  Addition and multiplication here are those of the extended reals; only their being the same
  operations on both sides is used, never a law that needs finiteness.
-/
import Idealize.ShloMosaic.PureOps.Ideal
import Idealize.ShloMosaic.Lib.ValueIdx

noncomputable section

namespace Cert.Spec

open Idealize.ShloMosaic Idealize.ShloMosaic.ValueIdx

/-- Entry `(r, k)` of a `[R, 128]` array, from a row coordinate and a contraction coordinate. -/
abbrev lhsAt {R : Nat} (r : Fin R) (k : Fin 128) : (⟨2, ![R, 128]⟩ : Shape).Idx := ix2 r k
/-- Entry `(k, n)` of the `[128, 32]` array. -/
abbrev rhsAt (k : Fin 128) (n : Fin 32) : (⟨2, ![128, 32]⟩ : Shape).Idx := ix2 k n

/-- The matrix product of a `[100000, 128]` array with a `[128, 32]` array on the extended reals. -/
def matProd (x : (⟨2, ![100000, 128]⟩ : Shape).Idx → EReal) (w : (⟨2, ![128, 32]⟩ : Shape).Idx → EReal) :
    (⟨2, ![100000, 32]⟩ : Shape).Idx → EReal :=
  fun i => ∑ k : Fin 128, x (lhsAt (R := 100000) (i 0) k) * w (rhsAt k (i 1))

/-- Row `r` of a `[R, 32]` array against the bias and weight rows:
    `∑ₖ max (x[r,k] + b1[0,k]) 0 · w2[0,k] + b2[0,0]`. -/
def rowOut {R : Nat} (x : (⟨2, ![R, 32]⟩ : Shape).Idx → EReal) (b1 w2 : (⟨2, ![1, 32]⟩ : Shape).Idx → EReal)
    (b2 : (⟨2, ![1, 1]⟩ : Shape).Idx → EReal) (r : Fin R) : EReal :=
  (∑ k : Fin 32, max (x (ix2 r k) + b1 (ix2 (0 : Fin 1) k)) (Ideal.ofBits .f32 0x00000000#32) * w2 (ix2 (0 : Fin 1) k))
    + b2 (ix2 (0 : Fin 1) (0 : Fin 1))

/-- Two row values agree when the rows agree entry by entry. -/
theorem rowOut_congr {R R' : Nat} (x : (⟨2, ![R, 32]⟩ : Shape).Idx → EReal) (x' : (⟨2, ![R', 32]⟩ : Shape).Idx → EReal)
    (b1 w2 : (⟨2, ![1, 32]⟩ : Shape).Idx → EReal) (b2 : (⟨2, ![1, 1]⟩ : Shape).Idx → EReal) (r : Fin R) (r' : Fin R')
    (h : ∀ k : Fin 32, x (ix2 r k) = x' (ix2 r' k)) : rowOut x b1 w2 b2 r = rowOut x' b1 w2 b2 r' := by
  unfold rowOut
  simp only [h]

/-- The last layer over the whole feature array, the parameters as rows. -/
def reluLinear (agg : (⟨2, ![100000, 32]⟩ : Shape).Idx → EReal) (b1 w2 : (⟨2, ![1, 32]⟩ : Shape).Idx → EReal)
    (b2 : (⟨2, ![1, 1]⟩ : Shape).Idx → EReal) : (⟨2, ![100000, 1]⟩ : Shape).Idx → EReal :=
  fun i => rowOut (R := 100000) agg b1 w2 b2 (i 0)

/-- The last layer over the whole feature array, the parameters in the caller's shapes. -/
def denseOut (agg : (⟨2, ![100000, 32]⟩ : Shape).Idx → EReal) (b1 : (⟨1, ![32]⟩ : Shape).Idx → EReal)
    (w2 : (⟨2, ![32, 1]⟩ : Shape).Idx → EReal) (b2 : (⟨1, ![1]⟩ : Shape).Idx → EReal) : (⟨2, ![100000, 1]⟩ : Shape).Idx → EReal :=
  fun i => (∑ k : Fin 32, max (agg (ix2 (i 0) k) + b1 (ix1 k)) (Ideal.ofBits .f32 0x00000000#32) * w2 (ix2 k (0 : Fin 1)))
    + b2 (ix1 (0 : Fin 1))

end Cert.Spec

end
-- ==== Proof.Region0.lean ====
/-
  Region 0: the row-tiled matrix product.

  Each of the ten grid points multiplies a block of 10000 rows of the left array by the whole
  right array.  Read on the extended reals the roundings to the narrower format are the
  identity and the product into a zero accumulator is the plain sum over the contracted axis,
  so what point `t` writes back is rows `10000·t … 10000·t + 9999` of ONE whole-array function,
  the matrix product `matProd` of the two arrays as the region finds them.  The row blocks
  tile the result array, hence it ends holding `matProd`.
-/
import proofs.«154508_j35115652612671_2_alg».proof.Proof.Gen.KernelIdeal.Frame
import proofs.«154508_j35115652612671_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Spec

theorem hz2 : (![0, 0] : Fin 2 → Nat) = fun _ => 0 := funext fun a => by fin_cases a <;> rfl

/-! The block product's operand indices, coordinate by coordinate: at result entry `j` and contraction index `q` the
    left operand is read at `(j 0, q)` and the right at `(q, j 1)`. -/
theorem blkLhs_0 (j : S10000x32.Idx) (q : dot_S10000x128_S128x32_S10000x32_1_0_0_1_n_n.contr.Idx) :
    (dot_S10000x128_S128x32_S10000x32_1_0_0_1_n_n.lhsIdx j q 0).val = (j 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem blkLhs_1 (j : S10000x32.Idx) (q : dot_S10000x128_S128x32_S10000x32_1_0_0_1_n_n.contr.Idx) :
    (dot_S10000x128_S128x32_S10000x32_1_0_0_1_n_n.lhsIdx j q 1).val = (q ⟨0, by decide⟩).val :=
  dot_S10000x128_S128x32_S10000x32_1_0_0_1_n_n.lhsIdx_val_of_single rfl j q
theorem blkRhs_0 (j : S10000x32.Idx) (q : dot_S10000x128_S128x32_S10000x32_1_0_0_1_n_n.contr.Idx) :
    (dot_S10000x128_S128x32_S10000x32_1_0_0_1_n_n.rhsIdx j q 0).val = (q ⟨0, by decide⟩).val :=
  dot_S10000x128_S128x32_S10000x32_1_0_0_1_n_n.rhsIdx_val_of_single rfl j q
theorem blkRhs_1 (j : S10000x32.Idx) (q : dot_S10000x128_S128x32_S10000x32_1_0_0_1_n_n.contr.Idx) :
    (dot_S10000x128_S128x32_S10000x32_1_0_0_1_n_n.rhsIdx j q 1).val = (j 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The body's stored value at entry `(r, n)` of its block: the sum over the contracted axis of the
    products of row `r` of the left block with column `n` of the right array. -/
theorem pay0_apply (x0 : Vec Ideal S10000x128 .f32) (x1 : Vec Ideal S128x32 .f32) (r : Fin 10000) (n : Fin 32) :
    k0_pay1 (F := Ideal) x0 x1 (ix2 r n) = ∑ k : Fin 128, x0 (lhsAt (R := 10000) r k) * x1 (rhsAt k n) := by
  unfold k0_pay1
  show FloatOps.matmul (F := Ideal) dot_S10000x128_S128x32_S10000x32_1_0_0_1_n_n none _ _ (constant (F := Ideal) S10000x32 .f32 0x00000000#32) (ix2 r n) = _
  rw [Ideal.matmul_constant_zero_apply,
    ← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 r n)
      ((contrEquiv1 dot_S10000x128_S128x32_S10000x32_1_0_0_1_n_n 128 rfl rfl).symm k) = lhsAt (R := 10000) r k :=
    funext fun a => Fin.ext (by
      match a with
      | ⟨0, _⟩ => exact blkLhs_0 _ _
      | ⟨1, _⟩ => exact (blkLhs_1 _ _).trans hk)
  have er : dot_S10000x128_S128x32_S10000x32_1_0_0_1_n_n.rhsIdx (ix2 r n)
      ((contrEquiv1 dot_S10000x128_S128x32_S10000x32_1_0_0_1_n_n 128 rfl rfl).symm k) = rhsAt k n :=
    funext fun a => Fin.ext (by
      match a with
      | ⟨0, _⟩ => exact (blkRhs_0 _ _).trans hk
      | ⟨1, _⟩ => exact blkRhs_1 _ _)
  rw [el, er]
  rfl

/-! ## From the blocks to the array -/

section Blocks

variable (V : (c : Dev nD) → (b : Ref sig .tc) → Buf (Elt Ideal) ((c : Thread nD τ).loc b))

/-- The printed index maps over the ten grid points: the left array and the result move one row block per point, the
    right array stays on its one block, and no window moves along the second axis. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows `10000·t …` of the left array. -/
theorem lhsBlock_apply (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c main_arg0 : S100000x128.Idx → EReal) i := by
  obtain ⟨e0, e1, -, -, -, -⟩ := idx0 t
  unfold iblk0
  rw [View.read_apply]
  show (V c main_arg0 : S100000x128.Idx → EReal) _ = _
  refine congrArg (V c main_arg0 : S100000x128.Idx → EReal) ?_
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The right window's block at every point is the whole right array. -/
theorem rhsBlock_apply (c : Dev nD) (t : Fin cfg0.N) (y : S128x32.Idx) :
    (iblk0 V c 1 t : Vec Ideal S128x32 .f32) y = (V c main_arg3 : S128x32.Idx → EReal) y := by
  obtain ⟨-, -, e2, e3, -, -⟩ := idx0 t
  unfold iblk0
  rw [View.read_apply]
  show (V c main_arg3 : S128x32.Idx → EReal) _ = _
  refine congrArg (V c main_arg3 : S128x32.Idx → EReal) ?_
  funext a
  apply Fin.ext
  match a with
  | ⟨0, _⟩ => show win0_1.index t (0 : Fin 2) * 128 + 1 * (y 0).val = (y 0).val; rw [e2]; omega
  | ⟨1, _⟩ => show win0_1.index t (1 : Fin 2) * 32 + 1 * (y 1).val = (y 1).val; rw [e3]; omega

/-- What point `t` writes back is block `t` of the matrix product of the two arrays as the region finds them. -/
theorem flushed0 (c : Dev nD) (t : Fin cfg0.N) :
    (dat0 V c).flushed 2 t = ((cfg0.win 2).blk t).view.read (Elt Ideal) (matProd (V c main_arg0) (V c main_arg3)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x32) hz2]
  obtain ⟨-, -, -, -, e4, e5⟩ := idx0 t
  funext j
  obtain ⟨r, n, rfl⟩ : ∃ (r : Fin 10000) (n : Fin 32), j = ix2 r n := ⟨j 0, j 1, eq_ix2 j⟩
  show k0_pay1 (F := Ideal) (iblk0 V c 0 t) (iblk0 V c 1 t) (ix2 r n)
    = matProd (V c main_arg0) (V c main_arg3) (((cfg0.win 2).blk t).view.emb (ix2 r n))
  rw [pay0_apply]
  unfold matProd
  refine Finset.sum_congr rfl fun k _ => ?_
  have hr : ((((cfg0.win 2).blk t).view.emb (ix2 r n)) 0).val = t.val * 10000 + r.val := by
    show win0_2.index t (0 : Fin 2) * 10000 + 1 * r.val = _; rw [e4]; omega
  have hn : ((((cfg0.win 2).blk t).view.emb (ix2 r n)) 1).val = n.val := by
    show win0_2.index t (1 : Fin 2) * 32 + 1 * n.val = _; rw [e5]; omega
  have h1 : (iblk0 V c 0 t : Vec Ideal S10000x128 .f32) (lhsAt (R := 10000) r k)
      = (V c main_arg0 : S100000x128.Idx → EReal) (lhsAt (R := 100000) ((((cfg0.win 2).blk t).view.emb (ix2 r n)) 0) k) :=
    lhsBlock_apply V c t (lhsAt (R := 10000) r k) (lhsAt (R := 100000) ((((cfg0.win 2).blk t).view.emb (ix2 r n)) 0) k) hr rfl
  have h2 : (iblk0 V c 1 t : Vec Ideal S128x32 .f32) (rhsAt k n)
      = (V c main_arg3 : S128x32.Idx → EReal) (rhsAt k ((((cfg0.win 2).blk t).view.emb (ix2 r n)) 1)) :=
    (rhsBlock_apply V c t (rhsAt k n)).trans (congrArg (V c main_arg3 : S128x32.Idx → EReal) (funext fun a => Fin.ext (by
      match a with
      | ⟨0, _⟩ => rfl
      | ⟨1, _⟩ => exact hn.symm)))
  rw [h1, h2]

/-- An index of the result array is in point `t`'s block iff each coordinate is in the block's range on its axis. -/
theorem mem_blk0 (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v33).slice (win0_2.rect t)).set ↔ _
  rw [View.set_slice_whole, Rect.mem_set_unit]
  exact Iff.rfl

/-- The ten row blocks tile the result array, so it ends holding the matrix product. -/
theorem final0 (c : Dev nD) : (dat0 V c).arrAt 2 cfg0.N = matProd (V c main_arg0) (V c main_arg3) :=
  (dat0 V c).arrAt_eq_of_cover 2 (matProd (V c main_arg0) (V c main_arg3)) (fun t _ => flushed0 V c t) fun i => by
    have hi0 : (i 0).val < 100000 := (i 0).isLt
    have hi1 : (i 1).val < 32 := (i 1).isLt
    have hN : cfg0.N = 10 := N_0
    refine ⟨⟨(i 0).val / 10000, by rw [hN]; omega⟩, flush0_2 _, ?_⟩
    rw [mem_blk0]
    obtain ⟨-, -, -, -, e4, e5⟩ := idx0 ⟨(i 0).val / 10000, by rw [hN]; omega⟩
    intro a
    match a with
    | ⟨0, _⟩ =>
      show win0_2.index _ (0 : Fin 2) * 10000 ≤ (i 0).val ∧ (i 0).val < win0_2.index _ (0 : Fin 2) * 10000 + 10000
      rw [e4]; show (i 0).val / 10000 * 10000 ≤ (i 0).val ∧ (i 0).val < (i 0).val / 10000 * 10000 + 10000; omega
    | ⟨1, _⟩ =>
      show win0_2.index _ (1 : Fin 2) * 32 ≤ (i 1).val ∧ (i 1).val < win0_2.index _ (1 : Fin 2) * 32 + 32
      rw [e5]; omega

end Blocks

end Cert.KernelIdeal.Hand

end
-- ==== Proof.Region1.lean ====
/-
  Region 1: bias, rectifier and the 32-to-1 linear layer, row block by row block.

  Each of the twenty grid points takes 5000 rows of the aggregated features, adds the first
  bias row, takes the maximum with zero, multiplies by the weight row, sums each row over its
  32 entries and adds the second bias.  What a point writes back is its 5000 rows of ONE
  whole-array function `reluLinear` of the four arrays as the region finds them; the row blocks
  tile the result array, so it ends holding `reluLinear`.
-/
import proofs.«154508_j35115652612671_2_alg».proof.Proof.Gen.KernelIdeal.Frame
import proofs.«154508_j35115652612671_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Spec

theorem hz2' : (![0, 0] : Fin 2 → Nat) = fun _ => 0 := funext fun a => by fin_cases a <;> rfl

/-- A length-`a` vector recast as an `[a, 1]` column reads, at `(r, 0)`, the vector at `r`. -/
theorem shapeCast_a_a1_apply {α : Type} {a : ℕ} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) := by
  refine shapeCast_apply x h (ix2 r z) (ix1 r) ?_
  rw [Shape.rowMajor_val_one, Shape.rowMajor_val_two]
  show r.val = r.val * 1 + z.val
  have := z.isLt
  omega

/-- The lane sum of the body, read at a row: the sum over the 32 lanes. -/
theorem laneSum_apply (src : FVec Ideal S5000x32 .f32) (hacc : (0x00000000#32 : BitVec 32) = 0x00000000#32) (r : Fin 5000) :
    multiReduction (F := Ideal) .add [1] S5000 src 0x00000000#32 reduces_S5000x32_S5000 (.inl rfl) hacc (ix1 r)
      = ∑ k : Fin 32, src (ix2 r k) := by
  refine (Ideal.multiReduction_add_single src 0x00000000#32 reduces_S5000x32_S5000 (.inl rfl) hacc (ix1 r)).trans ?_
  refine Finset.sum_congr rfl fun k _ => ?_
  refine congrArg src (funext fun a => Fin.ext ?_)
  match a with
  | ⟨0, _⟩ => rfl
  | ⟨1, _⟩ => rfl

/-- The body's stored value at row `r` of its block. -/
theorem pay1_apply (v0 : Vec Ideal S5000x32 .f32) (v2 v8 : Vec Ideal S1x32 .f32) (v14 : Vec Ideal S1x1 .f32) (r : Fin 5000) (z : Fin 1) :
    k1_pay1 (F := Ideal) v0 v2 v8 v14 (ix2 r z) = rowOut (R := 5000) v0 v2 v8 v14 r := by
  unfold k1_pay1 rowOut
  dsimp only
  simp only [shapeCast_self]
  rw [addf_apply, shapeCast_a_a1_apply, laneSum_apply, broadcastTo_1b_ab_apply]
  have hz : z = 0 := Fin.ext (by have := z.isLt; omega)
  subst hz
  refine congrArg (· + v14 (ix2 (0 : Fin 1) (0 : Fin 1))) ?_
  refine Finset.sum_congr rfl fun k _ => ?_
  rw [mulf_apply, maximumf_apply, addf_apply, broadcastTo_1b_ab_apply, broadcastTo_1b_ab_apply]
  rfl

/-! ## From the blocks to the array -/

section Blocks

variable (V : (c : Dev nD) → (b : Ref sig .tc) → Buf (Elt Ideal) ((c : Thread nD τ).loc b))

/-- The printed index maps over the twenty grid points: the feature array and the result move one row block per point,
    the two parameter rows and the scalar bias stay on their one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The feature window's block at point `t` is rows `5000·t …` of the feature array. -/
theorem aggBlock_apply (c : Dev nD) (t : Fin cfg1.N) (y : S5000x32.Idx) (i : S100000x32.Idx)
    (h0 : (i 0).val = t.val * 5000 + (y 0).val) (h1 : (i 1).val = (y 1).val) :
    (iblk1 V c 0 t : Vec Ideal S5000x32 .f32) y = (V c main_v47 : S100000x32.Idx → EReal) i := by
  obtain ⟨e0, e1, -⟩ := idx1 t
  unfold iblk1
  rw [View.read_apply]
  show (V c main_v47 : S100000x32.Idx → EReal) _ = _
  refine congrArg (V c main_v47 : S100000x32.Idx → EReal) ?_
  funext a
  apply Fin.ext
  match a with
  | ⟨0, _⟩ => show win1_0.index t (0 : Fin 2) * 5000 + 1 * (y 0).val = (i 0).val; rw [e0, h0]; omega
  | ⟨1, _⟩ => show win1_0.index t (1 : Fin 2) * 32 + 1 * (y 1).val = (i 1).val; rw [e1, h1]; omega

/-- The first bias row's block at every point is the whole row. -/
theorem b1Block (c : Dev nD) (t : Fin cfg1.N) :
    (iblk1 V c 1 t : Vec Ideal S1x32 .f32) = (V c main_v48 : S1x32.Idx → EReal) := by
  obtain ⟨-, -, e2, e3, -⟩ := idx1 t
  funext y
  unfold iblk1
  rw [View.read_apply]
  show (V c main_v48 : S1x32.Idx → EReal) _ = _
  refine congrArg (V c main_v48 : S1x32.Idx → EReal) ?_
  funext a
  apply Fin.ext
  match a with
  | ⟨0, _⟩ => show win1_1.index t (0 : Fin 2) * 1 + 1 * (y 0).val = (y 0).val; rw [e2]; omega
  | ⟨1, _⟩ => show win1_1.index t (1 : Fin 2) * 32 + 1 * (y 1).val = (y 1).val; rw [e3]; omega

/-- The weight row's block at every point is the whole row. -/
theorem w2Block (c : Dev nD) (t : Fin cfg1.N) :
    (iblk1 V c 2 t : Vec Ideal S1x32 .f32) = (V c main_v49 : S1x32.Idx → EReal) := by
  obtain ⟨-, -, -, -, e4, e5, -⟩ := idx1 t
  funext y
  unfold iblk1
  rw [View.read_apply]
  show (V c main_v49 : S1x32.Idx → EReal) _ = _
  refine congrArg (V c main_v49 : S1x32.Idx → EReal) ?_
  funext a
  apply Fin.ext
  match a with
  | ⟨0, _⟩ => show win1_2.index t (0 : Fin 2) * 1 + 1 * (y 0).val = (y 0).val; rw [e4]; omega
  | ⟨1, _⟩ => show win1_2.index t (1 : Fin 2) * 32 + 1 * (y 1).val = (y 1).val; rw [e5]; omega

/-- The second bias's block at every point is the whole one-entry array. -/
theorem b2Block (c : Dev nD) (t : Fin cfg1.N) :
    (iblk1 V c 3 t : Vec Ideal S1x1 .f32) = (V c main_v50 : S1x1.Idx → EReal) := by
  obtain ⟨-, -, -, -, -, -, e6, e7, -⟩ := idx1 t
  funext y
  unfold iblk1
  rw [View.read_apply]
  show (V c main_v50 : S1x1.Idx → EReal) _ = _
  refine congrArg (V c main_v50 : S1x1.Idx → EReal) ?_
  funext a
  apply Fin.ext
  match a with
  | ⟨0, _⟩ => show win1_3.index t (0 : Fin 2) * 1 + 1 * (y 0).val = (y 0).val; rw [e6]; omega
  | ⟨1, _⟩ => show win1_3.index t (1 : Fin 2) * 1 + 1 * (y 1).val = (y 1).val; rw [e7]; omega

/-- What point `t` writes back is block `t` of `reluLinear` of the four arrays as the region finds them. -/
theorem flushed1 (c : Dev nD) (t : Fin cfg1.N) :
    (dat1 V c).flushed 4 t = ((cfg1.win 4).blk t).view.read (Elt Ideal)
      (reluLinear (V c main_v47) (V c main_v48) (V c main_v49) (V c main_v50)) := by
  show (cfg1.win 4).cut (grid1.coords t) ((dat1 V c).after 4 t) = _
  rw [after1_4]
  unfold out1_4
  rw [View.canon_unit_zero hz2']
  simp only [View.ld_unit_zero (S := S5000x32) hz2', View.ld_unit_zero (S := S1x32) hz2', View.ld_unit_zero (S := S1x1) hz2']
  obtain ⟨-, -, -, -, -, -, -, -, e8, e9⟩ := idx1 t
  funext j
  obtain ⟨r, z, rfl⟩ : ∃ (r : Fin 5000) (z : Fin 1), j = ix2 r z := ⟨j 0, j 1, eq_ix2 j⟩
  show k1_pay1 (F := Ideal) (iblk1 V c 0 t) (iblk1 V c 1 t) (iblk1 V c 2 t) (iblk1 V c 3 t) (ix2 r z)
    = rowOut (R := 100000) (V c main_v47) (V c main_v48) (V c main_v49) (V c main_v50) ((((cfg1.win 4).blk t).view.emb (ix2 r z)) 0)
  rw [pay1_apply, b1Block V c t, w2Block V c t, b2Block V c t]
  have hr : ((((cfg1.win 4).blk t).view.emb (ix2 r z)) 0).val = t.val * 5000 + r.val := by
    show win1_4.index t (0 : Fin 2) * 5000 + 1 * r.val = _; rw [e8]; omega
  exact rowOut_congr (R := 5000) (R' := 100000) _ _ _ _ _ r _ fun k =>
    aggBlock_apply V c t (ix2 r k) (ix2 ((((cfg1.win 4).blk t).view.emb (ix2 r z)) 0) k) hr rfl

/-- An index of the result array is in point `t`'s block iff each coordinate is in the block's range on its axis. -/
theorem mem_blk1 (t : Fin cfg1.N) (i : S100000x1.Idx) :
    i ∈ ((cfg1.win 4).blk t).view.set ↔ ∀ a : Fin 2, win1_4.index t a * S5000x1.size a ≤ (i a).val ∧ (i a).val < win1_4.index t a * S5000x1.size a + S5000x1.size a := by
  show i ∈ ((View.whole main_v51).slice (win1_4.rect t)).set ↔ _
  rw [View.set_slice_whole, Rect.mem_set_unit]
  exact Iff.rfl

/-- The twenty row blocks tile the result array, so it ends holding `reluLinear`. -/
theorem final1 (c : Dev nD) : (dat1 V c).arrAt 4 cfg1.N = reluLinear (V c main_v47) (V c main_v48) (V c main_v49) (V c main_v50) :=
  (dat1 V c).arrAt_eq_of_cover 4 (reluLinear (V c main_v47) (V c main_v48) (V c main_v49) (V c main_v50)) (fun t _ => flushed1 V c t) fun i => by
    have hi0 : (i 0).val < 100000 := (i 0).isLt
    have hi1 : (i 1).val < 1 := (i 1).isLt
    have hN : cfg1.N = 20 := N_1
    refine ⟨⟨(i 0).val / 5000, by rw [hN]; omega⟩, flush1_4 _, ?_⟩
    rw [mem_blk1]
    obtain ⟨-, -, -, -, -, -, -, -, e8, e9⟩ := idx1 ⟨(i 0).val / 5000, by rw [hN]; omega⟩
    intro a
    match a with
    | ⟨0, _⟩ =>
      show win1_4.index _ (0 : Fin 2) * 5000 ≤ (i 0).val ∧ (i 0).val < win1_4.index _ (0 : Fin 2) * 5000 + 5000
      rw [e8]; show (i 0).val / 5000 * 5000 ≤ (i 0).val ∧ (i 0).val < (i 0).val / 5000 * 5000 + 5000; omega
    | ⟨1, _⟩ =>
      show win1_4.index _ (1 : Fin 2) * 1 ≤ (i 1).val ∧ (i 1).val < win1_4.index _ (1 : Fin 2) * 1 + 1
      rw [e9]; omega

end Blocks

end Cert.KernelIdeal.Hand

end
-- ==== Proof.RefSide.lean ====
/-
  The reference program's stages, read against the specification.

  * Its first matrix product is `Spec.matProd` of the two arrays (`ref_matProd`): the host's
    `dot_general` on the extended reals is the sum over the contracted axis.
  * Everything it computes after the scatter-add that aggregates the messages — broadcasting the
    bias vector along the rows, adding, the maximum with zero, the product with the weight column,
    adding the scalar bias — is `Spec.denseOut` of the aggregated array and the three parameters
    in the shapes the caller gives them (`ref_tail`).  The aggregated array itself stays a named
    stage (`val_main_v46`); nothing here looks inside it.
-/
import proofs.«154508_j35115652612671_2_alg».proof.Proof.Gen.ReferenceIdeal.Read
import proofs.«154508_j35115652612671_2_alg».proof.Proof.Spec
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen Cert.ReferenceIdeal.Read
open Idealize.ShloMosaic Idealize.ShloMosaic.TcCoe
open Idealize.ShloMosaic.ValueIdx
open Cert.Spec

/-- The reference's first matrix product is the specification's. -/
theorem ref_matProd (x0 : (⟨S100000x128, .f32⟩ : BufTy).Contents (Elt Ideal)) (x3 : (⟨S128x32, .f32⟩ : BufTy).Contents (Elt Ideal)) :
    val_main_v33 (F := Ideal) x0 x3 = matProd x0 x3 := by
  funext i
  rw [val_main_v33_apply]
  unfold matProd
  refine Finset.sum_congr rfl fun k _ => ?_
  have el : lidx_main_v33 i k = lhsAt (R := 100000) (i 0) k := funext fun a => Fin.ext (by
    match a with
    | ⟨0, _⟩ => rfl
    | ⟨1, _⟩ => rfl)
  have er : ridx_main_v33 i k = rhsAt k (i 1) := funext fun a => Fin.ext (by
    match a with
    | ⟨0, _⟩ => rfl
    | ⟨1, _⟩ => rfl)
  rw [el, er]

/-- The reference's last stages, from the aggregated array on, are the specification's dense layer. -/
theorem ref_tail (x0 : (⟨S100000x128, .f32⟩ : BufTy).Contents (Elt Ideal)) (x1 : (⟨S2x3200000, .i32⟩ : BufTy).Contents (Elt Ideal))
    (x2 : (⟨S3200000, .f32⟩ : BufTy).Contents (Elt Ideal)) (x3 : (⟨S128x32, .f32⟩ : BufTy).Contents (Elt Ideal))
    (x4 : (⟨S32, .f32⟩ : BufTy).Contents (Elt Ideal)) (x5 : (⟨S32x1, .f32⟩ : BufTy).Contents (Elt Ideal))
    (x6 : (⟨S1, .f32⟩ : BufTy).Contents (Elt Ideal)) :
    val_main_v54 (F := Ideal) x0 x1 x2 x3 x4 x5 x6 = denseOut (val_main_v46 (F := Ideal) x0 x1 x2 x3) x4 x5 x6 := by
  funext i
  rw [val_main_v54_apply, val_main_v51_apply, val_main_v53_apply, val_main_v52_apply]
  unfold denseOut
  have hb2 : idx_main_v52 (idx_main_v53 i) = ix1 (0 : Fin 1) := funext fun a => Fin.ext (by
    match a with
    | ⟨0, _⟩ => rfl)
  rw [hb2]
  have hs : (∑ k : Fin 32, (val_main_v50 (F := Ideal) x0 x1 x2 x3 x4) (lidx_main_v51 i k) * x5 (ridx_main_v51 i k))
      = ∑ k : Fin 32, max ((val_main_v46 (F := Ideal) x0 x1 x2 x3) (ix2 (i 0) k) + x4 (ix1 k)) (Ideal.ofBits .f32 0x00000000#32) * x5 (ix2 k (0 : Fin 1)) := by
    refine Finset.sum_congr rfl fun k _ => ?_
    rw [val_main_v50_apply, val_main_v49_apply, val_main_call1_v0_apply, val_main_call1_cst_apply, val_main_v48_apply, val_main_v47_apply]
    have e1 : lidx_main_v51 i k = ix2 (i 0) k := funext fun a => Fin.ext (by
      match a with
      | ⟨0, _⟩ => rfl
      | ⟨1, _⟩ => rfl)
    have e2 : idx_main_v47 (idx_main_v48 (lidx_main_v51 i k)) = ix1 k := funext fun a => Fin.ext (by
      match a with
      | ⟨0, _⟩ => rfl)
    have e3 : ridx_main_v51 i k = ix2 k (0 : Fin 1) := funext fun a => Fin.ext (by
      match a with
      | ⟨0, _⟩ => rfl
      | ⟨1, _⟩ => show (i 1).val = 0; have h1 : (i 1).val < 1 := (i 1).isLt; omega)
    rw [e2, e1, e3]
    rfl
  rw [hs]
  rfl

end Cert.ReferenceIdeal.Hand

end
-- ==== Proof.HostK.lean ====
/-
  The idealized kernel program's host operations, followed from the launch memory to the result.

  Between the launch and the first region, and between the two regions, the program computes on
  the host exactly what the reference computes there: the self-looped edge lists, the degrees,
  their inverse square roots, the per-edge normalisation, then — from the first region's matrix
  product — the gathered, scaled and scatter-added messages.  Each boundary's buffer contents
  are identified here with the reference's stage of the same name, read as a function of the
  argument arrays; no stage is opened: the host operations on both sides are the same terms, so
  each identification is by unfolding the two programs' texts.

  With the two regions' values (the matrix product, the bias–rectifier–linear layer) this gives
  the result buffer at the end: `denseOut` of the reference's aggregated stage at the first
  region's product.
-/
import proofs.«154508_j35115652612671_2_alg».proof.Proof.Gen.KernelIdeal.Frame
import proofs.«154508_j35115652612671_2_alg».proof.Proof.Gen.ReferenceIdeal.Read
import proofs.«154508_j35115652612671_2_alg».proof.Proof.Spec
import proofs.«154508_j35115652612671_2_alg».proof.Proof.Region0
import proofs.«154508_j35115652612671_2_alg».proof.Proof.Region1
import proofs.«154508_j35115652612671_2_alg».proof.Proof.RefSide
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.Spec
open Cert.ReferenceIdeal.Read (val_main_v5 val_main_v6 val_main_v8 val_main_v13 val_main_v15 val_main_cst_3 val_main_v16
  val_main_v32 val_main_v33 val_main_v46)

variable (m : (ℓ : Loc nD τ sig) → Buf (Elt Ideal) ℓ) (ρ : Dev nD → PrngReg)

/-- The argument arrays at launch. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)

set_option maxHeartbeats 16000000 in
/-- After the first stretch: the two self-looped edge lists, the self-looped weights, the degree test and the degrees'
    inverse square roots are the reference's stages; the arguments are as launched. -/
theorem stage1 (c : Dev nD) :
    W1 m ρ c (Proc.devRef .tc main_v5) = val_main_v5 (F := Ideal) (a1 m c)
    ∧ W1 m ρ c (Proc.devRef .tc main_v6) = val_main_v6 (F := Ideal) (a1 m c)
    ∧ W1 m ρ c (Proc.devRef .tc main_v8) = val_main_v8 (F := Ideal) (a2 m c)
    ∧ W1 m ρ c (Proc.devRef .tc main_v13) = val_main_v13 (F := Ideal) (a1 m c) (a2 m c)
    ∧ W1 m ρ c (Proc.devRef .tc main_v15) = val_main_v15 (F := Ideal) (a1 m c) (a2 m c)
    ∧ W1 m ρ c (Proc.devRef .tc main_cst_3) = val_main_cst_3 (F := Ideal)
    ∧ W1 m ρ c (Proc.devRef .tc main_arg0) = a0 m c
    ∧ W1 m ρ c (Proc.devRef .tc main_arg3) = a3 m c
    ∧ W1 m ρ c (Proc.devRef .tc main_arg4) = a4 m c
    ∧ W1 m ρ c (Proc.devRef .tc main_arg5) = a5 m c
    ∧ W1 m ρ c (Proc.devRef .tc main_arg6) = a6 m c := by
  refine ⟨?_, ?_, ?_, ?_, ?_, ?_, ?_, ?_, ?_, ?_, ?_⟩ <;> (dsimp only [W1]; after_results_simp) <;> rfl

set_option maxHeartbeats 16000000 in
/-- After the outlined selection: the inverse square roots where the degree is positive, zero elsewhere — the reference's
    stage — and what the first stretch left. -/
theorem stage2 (c : Dev nD) :
    W2 m ρ c (Proc.devRef .tc main_v16) = val_main_v16 (F := Ideal) (a1 m c) (a2 m c)
    ∧ W2 m ρ c (Proc.devRef .tc main_v5) = val_main_v5 (F := Ideal) (a1 m c)
    ∧ W2 m ρ c (Proc.devRef .tc main_v6) = val_main_v6 (F := Ideal) (a1 m c)
    ∧ W2 m ρ c (Proc.devRef .tc main_v8) = val_main_v8 (F := Ideal) (a2 m c)
    ∧ W2 m ρ c (Proc.devRef .tc main_arg0) = a0 m c
    ∧ W2 m ρ c (Proc.devRef .tc main_arg3) = a3 m c
    ∧ W2 m ρ c (Proc.devRef .tc main_arg4) = a4 m c
    ∧ W2 m ρ c (Proc.devRef .tc main_arg5) = a5 m c
    ∧ W2 m ρ c (Proc.devRef .tc main_arg6) = a6 m c := by
  obtain ⟨h5, h6, h8, h13, h15, hc3, g0, g3, g4, g5, g6⟩ := stage1 m ρ c
  dsimp only [W2]
  generalize W1 m ρ c = Z at *
  refine ⟨?_, ?_, ?_, ?_, ?_, ?_, ?_, ?_, ?_⟩
  · after_results_simp; rw [h13, h15, hc3]; dsimp only [TRef.toBuf, TRef.ofBuf]; repeat rw [cast_eq]
    rfl
  · after_results_simp; exact h5
  · after_results_simp; exact h6
  · after_results_simp; exact h8
  · after_results_simp; exact g0
  · after_results_simp; exact g3
  · after_results_simp; exact g4
  · after_results_simp; exact g5
  · after_results_simp; exact g6

set_option maxHeartbeats 16000000 in
/-- At the first region's entry: the per-edge normalisation is the reference's stage, and the edge lists and the
    arguments are as before. -/
theorem stage3 (c : Dev nD) :
    W3 m ρ c (Proc.devRef .tc main_v32) = val_main_v32 (F := Ideal) (a1 m c) (a2 m c)
    ∧ W3 m ρ c (Proc.devRef .tc main_v5) = val_main_v5 (F := Ideal) (a1 m c)
    ∧ W3 m ρ c (Proc.devRef .tc main_v6) = val_main_v6 (F := Ideal) (a1 m c)
    ∧ W3 m ρ c (Proc.devRef .tc main_arg0) = a0 m c
    ∧ W3 m ρ c (Proc.devRef .tc main_arg3) = a3 m c
    ∧ W3 m ρ c (Proc.devRef .tc main_arg4) = a4 m c
    ∧ W3 m ρ c (Proc.devRef .tc main_arg5) = a5 m c
    ∧ W3 m ρ c (Proc.devRef .tc main_arg6) = a6 m c := by
  obtain ⟨h16, h5, h6, h8, g0, g3, g4, g5, g6⟩ := stage2 m ρ c
  dsimp only [W3]
  generalize W2 m ρ c = Z at *
  refine ⟨?_, ?_, ?_, ?_, ?_, ?_, ?_, ?_⟩
  · after_results_simp; rw [h16, h5, h6, h8]; rfl
  · after_results_simp; exact h5
  · after_results_simp; exact h6
  · after_results_simp; exact g0
  · after_results_simp; exact g3
  · after_results_simp; exact g4
  · after_results_simp; exact g5
  · after_results_simp; exact g6

/-- At the first region's exit: its result array holds the matrix product of the first and fourth arguments; the
    normalisation, the edge lists and the remaining arguments are untouched. -/
theorem stage4 (c : Dev nD) :
    W4 m ρ c (Proc.devRef .tc main_v33) = matProd (a0 m c) (a3 m c)
    ∧ W4 m ρ c (Proc.devRef .tc main_v32) = val_main_v32 (F := Ideal) (a1 m c) (a2 m c)
    ∧ W4 m ρ c (Proc.devRef .tc main_v5) = val_main_v5 (F := Ideal) (a1 m c)
    ∧ W4 m ρ c (Proc.devRef .tc main_v6) = val_main_v6 (F := Ideal) (a1 m c)
    ∧ W4 m ρ c (Proc.devRef .tc main_arg4) = a4 m c
    ∧ W4 m ρ c (Proc.devRef .tc main_arg5) = a5 m c
    ∧ W4 m ρ c (Proc.devRef .tc main_arg6) = a6 m c := by
  obtain ⟨h32, h5, h6, g0, g3, g4, g5, g6⟩ := stage3 m ρ c
  refine ⟨?_, ?_, ?_, ?_, ?_, ?_, ?_⟩
  · refine (W4_arr m ρ c 2).trans ((final0 (V3 m ρ) c).trans ?_)
    show matProd (W3 m ρ c (Proc.devRef .tc main_arg0)) (W3 m ρ c (Proc.devRef .tc main_arg3)) = _
    rw [g0, g3]
  · exact (W4_of_ne m ρ c main_v32 (by decide)).trans h32
  · exact (W4_of_ne m ρ c main_v5 (by decide)).trans h5
  · exact (W4_of_ne m ρ c main_v6 (by decide)).trans h6
  · exact (W4_of_ne m ρ c main_arg4 (by decide)).trans g4
  · exact (W4_of_ne m ρ c main_arg5 (by decide)).trans g5
  · exact (W4_of_ne m ρ c main_arg6 (by decide)).trans g6

set_option maxHeartbeats 16000000 in
/-- At the second region's entry: the aggregated messages are the reference's stage (at the first region's matrix
    product), and the three parameters arrive recast as rows. -/
theorem stage5 (c : Dev nD) :
    V5 m ρ c main_v47 = val_main_v46 (F := Ideal) (a0 m c) (a1 m c) (a2 m c) (a3 m c)
    ∧ V5 m ρ c main_v48 = shapeCast S1x32 (a4 m c) shapeCasts_S32_S1x32
    ∧ V5 m ρ c main_v49 = shapeCast S1x32 (a5 m c) shapeCasts_S32x1_S1x32
    ∧ V5 m ρ c main_v50 = shapeCast S1x1 (a6 m c) shapeCasts_S1_S1x1 := by
  obtain ⟨h33, h32, h5, h6, g4, g5, g6⟩ := stage4 m ρ c
  dsimp only [V5, W5]
  generalize W4 m ρ c = Z at *
  refine ⟨?_, ?_, ?_, ?_⟩
  · after_results_simp
    rw [h33, h32, h5, h6, ← Cert.ReferenceIdeal.Hand.ref_matProd]
    rfl
  · after_results_simp; rw [g4]; rfl
  · after_results_simp; rw [g5]; rfl
  · after_results_simp; rw [g6]; rfl

/-- The last layer with its parameters recast as rows is the layer with the parameters as given: a `[32]` vector read
    as a `[1, 32]` row, a `[32, 1]` column read as a `[1, 32]` row, a `[1]` vector read as a `[1, 1]` array. -/
theorem reluLinear_rows (agg : S100000x32.Idx → EReal) (b1 : S32.Idx → EReal) (w2 : S32x1.Idx → EReal) (b2 : S1.Idx → EReal) :
    reluLinear agg (shapeCast S1x32 b1 shapeCasts_S32_S1x32) (shapeCast S1x32 w2 shapeCasts_S32x1_S1x32)
      (shapeCast S1x1 b2 shapeCasts_S1_S1x1) = denseOut agg b1 w2 b2 := by
  funext i
  unfold reluLinear rowOut denseOut
  rw [shapeCast_a_1a_apply]
  refine congrArg (· + b2 (ix1 (0 : Fin 1))) (Finset.sum_congr rfl fun k _ => ?_)
  rw [shapeCast_a_1a_apply]
  refine congrArg (max (agg (ix2 (i 0) k) + b1 (ix1 k)) (Ideal.ofBits .f32 0x00000000#32) * ·) ?_
  refine shapeCast_apply w2 shapeCasts_S32x1_S1x32 (ix2 (0 : Fin 1) k) (ix2 k (0 : Fin 1)) ?_
  rw [Shape.rowMajor_val_two, Shape.rowMajor_val_two]
  show k.val * 1 + 0 = 0 * 32 + k.val
  omega

/-- THE RESULT BUFFER after the run: the dense layer of the reference's aggregated stage. -/
theorem result_eq (c : Dev nD) :
    W6 m ρ c (Proc.devRef .tc main_v51)
      = denseOut (val_main_v46 (F := Ideal) (a0 m c) (a1 m c) (a2 m c) (a3 m c)) (a4 m c) (a5 m c) (a6 m c) := by
  obtain ⟨h47, h48, h49, h50⟩ := stage5 m ρ c
  refine (W6_arr m ρ c 4).trans ((final1 (V5 m ρ) c).trans ?_)
  rw [h47, h48, h49, h50]
  exact reluLinear_rows _ _ _ _

end Cert.KernelIdeal.Hand

end
-- ==== Proof.lean ====
/-
  The certificate: the kernel program (two pipelined regions among host operations) against its
  reference, a graph convolution with self-loops and symmetric normalisation followed by a
  rectifier and a 32-to-1 linear layer.

  On the extended reals the two programs are one function of the seven arguments.
  * Up to the feature transform they run the same host operations (edge lists with self-loops,
    scatter-added degrees, their inverse square roots where positive, the per-edge normalisation).
  * The kernel program's first region multiplies 10000-row blocks of the node features by the
    weight matrix, rounding to a narrower format on the way in and out; on the extended reals
    the roundings are the identity and the blocks tile the reference's one matrix product.
  * Gathering, scaling and scatter-adding the messages is again the same host text on both sides,
    applied to equal arrays.
  * The second region adds the bias row, takes the maximum with zero, multiplies by the weight
    row and sums each row's 32 lanes, then adds the scalar bias; the reference broadcasts the bias,
    applies the rectifier, contracts with the `[32, 1]` weight column and adds the bias: the same
    sum of the same 32 products, row by row.
  No step uses a law of the extended reals that needs finiteness: both sides are the same sums
  of the same products in the same order, so the precondition is never opened.

  The three frames are the programs' runs with the results dropped; the idealization rewrote no
  operation, so `preserves` asks nothing.
-/
import proofs.«154508_j35115652612671_2_alg».proof.Defs
import proofs.«154508_j35115652612671_2_alg».proof.Proof.Gen.Kernel
import proofs.«154508_j35115652612671_2_alg».proof.Proof.Gen.Kernel.Frame
import proofs.«154508_j35115652612671_2_alg».proof.Proof.Gen.KernelIdeal
import proofs.«154508_j35115652612671_2_alg».proof.Proof.Gen.KernelIdeal.Frame
import proofs.«154508_j35115652612671_2_alg».proof.Proof.Gen.ReferenceIdeal
import proofs.«154508_j35115652612671_2_alg».proof.Proof.Gen.ReferenceIdeal.Run
import proofs.«154508_j35115652612671_2_alg».proof.Proof.Gen.ReferenceIdeal.Read
import proofs.«154508_j35115652612671_2_alg».proof.Proof.Gen.Pre_finite_inputs
import proofs.«154508_j35115652612671_2_alg».proof.Proof.KRun
import proofs.«154508_j35115652612671_2_alg».proof.Proof.HostK
import proofs.«154508_j35115652612671_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the dense layer of the aggregated messages: the kernel program's by its two
    regions' values and its host operations followed through, the reference's by its last stages read at an index. -/
theorem algebraic : Cert.algebraic_KernelIdeal_ReferenceIdeal := by
  intro m ρ m' ρ' _ hagree
  refine ⟨fun c => Cert.Spec.denseOut
      (Cert.ReferenceIdeal.Read.val_main_v46 (F := Ideal) (Cert.KernelIdeal.Hand.a0 m c) (Cert.KernelIdeal.Hand.a1 m c)
        (Cert.KernelIdeal.Hand.a2 m c) (Cert.KernelIdeal.Hand.a3 m c))
      (Cert.KernelIdeal.Hand.a4 m c) (Cert.KernelIdeal.Hand.a5 m c) (Cert.KernelIdeal.Hand.a6 m c), ?_, ?_⟩
  · exact (θ_run Cert.KernelIdeal.defs _ _).mono
      (fun r h c => ⟨(h c).1.trans (Cert.KernelIdeal.Hand.result_eq m ρ c), (h c).2⟩)
      (Cert.KernelIdeal.Hand.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v54_eq, Cert.ReferenceIdeal.Hand.ref_tail,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
